-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x16384 : Shape := ⟨2, ![8192, 16384]⟩
abbrev S128x8 : Shape := ⟨2, ![128, 8]⟩
abbrev S8 : Shape := ⟨1, ![8]⟩
abbrev S1x16 : Shape := ⟨2, ![1, 16]⟩
abbrev S8x1 : Shape := ⟨2, ![8, 1]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S1x16 : S_.BroadcastsInDim S1x16 (![] : Fin 0 → Fin S1x16.rank)
  reducesTo_S1x16_S_d0_1 : S1x16.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S8 .f32) (main_arg5 : FVec F S1x16 .f32) (main_arg6 : FVec F S8x1 .f32) (main_arg7 : FVec F S1 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S8x1 .f32 := Host.absf main_arg6
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  fn_part2 (F := F) main_arg7 main_v33

def fn {F : FTy → Type} [FloatOps F] (main_arg0 : FVec F S8192x64 .f32) (main_arg1 : FVec F S8192x16384 .f32) (main_arg2 : FVec F S8192x16384 .f32) (main_arg3 : FVec F S128x8 .f32) (main_arg4 : FVec F S8 .f32) (main_arg5 : FVec F S1x16 .f32) (main_arg6 : FVec F S8x1 .f32) (main_arg7 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x16384 .f32 := Host.absf main_arg1
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_arg5 main_arg6 main_arg7 main_v13 main_v16
-- ==== Kernel.lean ====
abbrev S8192x64 : Shape := ⟨2, ![8192, 64]⟩
abbrev S8192x16384 : Shape := ⟨2, ![8192, 16384]⟩
abbrev S128x8 : Shape := ⟨2, ![128, 8]⟩
abbrev S8 : Shape := ⟨1, ![8]⟩
abbrev S1x16 : Shape := ⟨2, ![1, 16]⟩
abbrev S8x1 : Shape := ⟨2, ![8, 1]⟩
abbrev S1 : Shape := ⟨1, ![1]⟩
abbrev S1x8 : Shape := ⟨2, ![1, 8]⟩
abbrev S16384x8 : Shape := ⟨2, ![16384, 8]⟩
abbrev S1024x2048 : Shape := ⟨2, ![1024, 2048]⟩
abbrev S2048x8 : Shape := ⟨2, ![2048, 8]⟩
abbrev S2048x128 : Shape := ⟨2, ![2048, 128]⟩
abbrev S1024x64 : Shape := ⟨2, ![1024, 64]⟩
abbrev S2048x64 : Shape := ⟨2, ![2048, 64]⟩
abbrev S_ : Shape := ⟨0, ![]⟩
abbrev S2x8 : Shape := ⟨2, ![2, 8]⟩
abbrev S16384x1 : Shape := ⟨2, ![16384, 1]⟩
abbrev S1x1 : Shape := ⟨2, ![1, 1]⟩

abbrev nBuf : Space → Nat
  | .hbm => 45
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x16384, .f32⟩
  | .hbm, ⟨2, _⟩ => ⟨S8192x16384, .f32⟩
  | .hbm, ⟨3, _⟩ => ⟨S128x8, .f32⟩
  | .hbm, ⟨4, _⟩ => ⟨S8, .f32⟩
  | .hbm, ⟨5, _⟩ => ⟨S1x16, .f32⟩
  | .hbm, ⟨6, _⟩ => ⟨S8x1, .f32⟩
  | .hbm, ⟨7, _⟩ => ⟨S1, .f32⟩
  | .hbm, ⟨8, _⟩ => ⟨S8192x64, .bf16⟩
  | .hbm, ⟨9, _⟩ => ⟨S8192x64, .f32⟩
  | .hbm, ⟨10, _⟩ => ⟨S8192x64, .f32⟩
  | .hbm, ⟨11, _⟩ => ⟨S8192x64, .bf16⟩
  | .hbm, ⟨12, _⟩ => ⟨S1x8, .f32⟩
  | .hbm, ⟨13, _⟩ => ⟨S16384x8, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x8, .f32⟩
  | .hbm, ⟨19, _⟩ => ⟨S16384x8, .f32⟩
  | .hbm, ⟨20, _⟩ => ⟨S_, .f32⟩
  | .hbm, ⟨21, _⟩ => ⟨S16384x8, .f32⟩
  | .hbm, ⟨22, _⟩ => ⟨S16384x8, .f32⟩
  | .hbm, ⟨23, _⟩ => ⟨S_, .f32⟩
  | .hbm, ⟨24, _⟩ => ⟨S16384x8, .f32⟩
  | .hbm, ⟨25, _⟩ => ⟨S16384x8, .f32⟩
  | .hbm, ⟨26, _⟩ => ⟨S2x8, .f32⟩
  | .hbm, ⟨27, _⟩ => ⟨S_, .f32⟩
  | .hbm, ⟨28, _⟩ => ⟨S8, .f32⟩
  | .hbm, ⟨29, _⟩ => ⟨S1x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x1, .f32⟩
  | .hbm, ⟨34, _⟩ => ⟨S1x1, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S8192x64, .bf16⟩
  | .local _ .vmem, ⟨5, _⟩ => ⟨S8192x64, .bf16⟩
  | .local _ .vmem, ⟨6, _⟩ => ⟨S128x8, .f32⟩
  | .local _ .vmem, ⟨7, _⟩ => ⟨S1x8, .f32⟩
  | .local _ .vmem, ⟨8, _⟩ => ⟨S2048x8, .f32⟩
  | .local _ .vmem, ⟨9, _⟩ => ⟨S2048x8, .f32⟩
  | .local _ .vmem, ⟨10, _⟩ => ⟨S2048x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  shapeCasts_S8_S1x8 : S8.ShapeCasts S1x8
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  concatenates_S2048x64_S2048x64_S2048x128_d1 : Shape.Concatenates [S2048x64, S2048x64] S2048x128 1
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  reducesTo_S16384x8_S_d0_1 : S16384x8.ReducesTo [0, 1] S_
  h_S_ : 0 < S_.numel
  bcast_S_S16384x8 : S_.BroadcastsInDim S16384x8 (![] : Fin 0 → Fin S16384x8.rank)
  shapeCasts_S1x16_S2x8 : S1x16.ShapeCasts S2x8
  reducesTo_S2x8_S8_d0 : S2x8.ReducesTo [0] S8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S1024x2048_S1024x64_S2048x64_0_0_1_1_n_n_wf : DotDims.WF S1024x2048 S1024x64 S2048x64 [0] [0] [1] [1] [] []
  dot_S2048x128_S128x8_S2048x8_1_0_0_1_n_n_wf : DotDims.WF S2048x128 S128x8 S2048x8 [1] [0] [0] [1] [] []
  dot_S16384x8_S8x1_S16384x1_1_0_0_1_n_n_wf : DotDims.WF S16384x8 S8x1 S16384x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x16384.size a
  hwx0_0 : ∀ i : grid0.Coords, EltTy.bits .f32 = 32 ∨ (Rect.block (s := S8192x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x16384.size a
  hwx0_1 : ∀ i : grid0.Coords, EltTy.bits .f32 = 32 ∨ (Rect.block (s := S8192x16384) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .bf16 = 32 ∨ (Rect.block (s := S8192x64) S8192x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .bf16 = 32 ∨ (Rect.block (s := S8192x64) S8192x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .f32 = 32 ∨ (Rect.block (s := S128x8) S128x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x8.size a ≤ S16384x8.size a
  hwx0_6 : ∀ i : grid0.Coords, EltTy.bits .f32 = 32 ∨ (Rect.block (s := S16384x8) S2048x8.size (cc0_transform_6 i) (hinb0_6 i)).WholeWords (EltTy.packing .f32)

variable [Facts₀]

def dot_S1024x2048_S1024x64_S2048x64_0_0_1_1_n_n : DotDims S1024x2048 S1024x64 S2048x64 where
  lhsContracting := [0]
  rhsContracting := [0]
  lhsNonContracting := [1]
  rhsNonContracting := [1]
  lhsBatch := []
  rhsBatch := []
  wf := dot_S1024x2048_S1024x64_S2048x64_0_0_1_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x16384 : Shape := ⟨2, ![8192, 16384]⟩
abbrev S128x8 : Shape := ⟨2, ![128, 8]⟩
abbrev S8 : Shape := ⟨1, ![8]⟩
abbrev S1x16 : Shape := ⟨2, ![1, 16]⟩
abbrev S8x1 : Shape := ⟨2, ![8, 1]⟩
abbrev S1 : Shape := ⟨1, ![1]⟩
abbrev S16384x8192 : Shape := ⟨2, ![16384, 8192]⟩
abbrev S16384x64 : Shape := ⟨2, ![16384, 64]⟩
abbrev S16384x128 : Shape := ⟨2, ![16384, 128]⟩
abbrev S16384x8 : Shape := ⟨2, ![16384, 8]⟩
abbrev S1x8 : Shape := ⟨2, ![1, 8]⟩
abbrev S_ : Shape := ⟨0, ![]⟩
abbrev S2x8 : Shape := ⟨2, ![2, 8]⟩
abbrev S16384x1 : Shape := ⟨2, ![16384, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x16384, .f32⟩
  | .hbm, ⟨2, _⟩ => ⟨S8192x16384, .f32⟩
  | .hbm, ⟨3, _⟩ => ⟨S128x8, .f32⟩
  | .hbm, ⟨4, _⟩ => ⟨S8, .f32⟩
  | .hbm, ⟨5, _⟩ => ⟨S1x16, .f32⟩
  | .hbm, ⟨6, _⟩ => ⟨S8x1, .f32⟩
  | .hbm, ⟨7, _⟩ => ⟨S1, .f32⟩
  | .hbm, ⟨8, _⟩ => ⟨S16384x8192, .f32⟩
  | .hbm, ⟨9, _⟩ => ⟨S16384x64, .f32⟩
  | .hbm, ⟨10, _⟩ => ⟨S16384x8192, .f32⟩
  | .hbm, ⟨11, _⟩ => ⟨S16384x64, .f32⟩
  | .hbm, ⟨12, _⟩ => ⟨S16384x128, .f32⟩
  | .hbm, ⟨13, _⟩ => ⟨S16384x8, .f32⟩
  | .hbm, ⟨14, _⟩ => ⟨S1x8, .f32⟩
  | .hbm, ⟨15, _⟩ => ⟨S16384x8, .f32⟩
  | .hbm, ⟨16, _⟩ => ⟨S16384x8, .f32⟩
  | .hbm, ⟨17, _⟩ => ⟨S_, .f32⟩
  | .hbm, ⟨18, _⟩ => ⟨S16384x8, .f32⟩
  | .hbm, ⟨19, _⟩ => ⟨S16384x8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x8, .f32⟩
  | .hbm, ⟨25, _⟩ => ⟨S16384x8, .f32⟩
  | .hbm, ⟨26, _⟩ => ⟨S_, .f32⟩
  | .hbm, ⟨27, _⟩ => ⟨S16384x8, .f32⟩
  | .hbm, ⟨28, _⟩ => ⟨S16384x8, .f32⟩
  | .hbm, ⟨29, _⟩ => ⟨S_, .f32⟩
  | .hbm, ⟨30, _⟩ => ⟨S16384x8, .f32⟩
  | .hbm, ⟨31, _⟩ => ⟨S16384x8, .f32⟩
  | .hbm, ⟨32, _⟩ => ⟨S2x8, .f32⟩
  | .hbm, ⟨33, _⟩ => ⟨S_, .f32⟩
  | .hbm, ⟨34, _⟩ => ⟨S8, .f32⟩
  | .hbm, ⟨35, _⟩ => ⟨S1x8, .f32⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  transposes_S8192x16384_S16384x8192_1_0 : S8192x16384.Transposes [1, 0] S16384x8192
  concatenates_S16384x64_S16384x64_S16384x128_d1 : Shape.Concatenates [S16384x64, S16384x64] S16384x128 1
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  reducesTo_S16384x8_S_d0_1 : S16384x8.ReducesTo [0, 1] S_
  h_S_ : 0 < S_.numel
  shapeCasts_S1x16_S2x8 : S1x16.ShapeCasts S2x8
  reducesTo_S2x8_S8_d0 : S2x8.ReducesTo [0] S8
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x8192_S8192x64_S16384x64_1_0_0_1_n_n_wf : DotDims.WF S16384x8192 S8192x64 S16384x64 [1] [0] [0] [1] [] []
  dot_S16384x128_S128x8_S16384x8_1_0_0_1_n_n_wf : DotDims.WF S16384x128 S128x8 S16384x8 [1] [0] [0] [1] [] []
  dot_S16384x8_S8x1_S16384x1_1_0_0_1_n_n_wf : DotDims.WF S16384x8 S8x1 S16384x1 [1] [0] [0] [1] [] []

variable [Facts₀]

def dot_S16384x8192_S8192x64_S16384x64_1_0_0_1_n_n : DotDims S16384x8192 S8192x64 S16384x64 where
  lhsContracting := [1]
  rhsContracting := [0]
  lhsNonContracting := [0]
  rhsNonContracting := [1]
  lhsBatch := []
  rhsBatch := []
  wf := dot_S16384x8192_S8192x64_S16384x64_1_0_0_1_n_n_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

class Facts : Prop extends Facts₀ where

variable [Facts]
-- ==== Proof.Pieces.lean ====
/-
  What one step of the kernel body leaves behind, as values.

  A step at grid point `(e, k)` reads the `k`-th block of 1024 rows of the two resident node matrices (the high and
  the low half of the split of `X`), the current blocks of the two incidence matrices, and the accumulator, and
  stores `acc + [Aoᵀ·hi + Aoᵀ·lo | Aiᵀ·hi + Aiᵀ·lo]` back into the accumulator. At `k = 0` the accumulator it reads is
  the zero block it has just stored; at `k = 7` it also stores `max (acc·W + b) 0` of the NEW accumulator into the
  output block. Each statement below is that reading for one of the three cases of the two conditions.
-/
import proofs.«169365_j6622839570931_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The block of 1024 rows of a resident [8192, 64] matrix that the body loads at grid point `i`: rows
    `1024 k … 1024 k + 1023` for `k` the point's second coordinate. -/
abbrev nodeRows (i : grid0.Coords) (x : Vec F S8192x64 .bf16) : Vec F S1024x64 .bf16 :=
  View.ld x (Rect.unit (s := S8192x64) (k0_off1 i) S1024x64.size (k0_off1_inb i))

/-- A middle step (`0 < k < 7`): the accumulator plus this tile's products. -/
theorem scratch_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S8192x64 .bf16) (harg4 : arg4.IsWhole) (arg5 : Memref sig .tc .vmem S8192x64 .bf16) (harg5 : arg5.IsWhole) (arg6 : Memref sig .tc .vmem S128x8 .f32) (harg6 : arg6.IsWhole) (arg7 : Memref sig .tc .vmem S1x8 .f32) (harg7 : arg7.IsWhole) (arg8 : Memref sig .tc .vmem S2048x8 .f32) (harg8 : arg8.IsWhole) (arg9 : Memref sig .tc .vmem S2048x128 .f32) (harg9 : arg9.IsWhole) (hc0 : ¬cond0_0 i) (hc1 : ¬cond0_1 i) (x0 : Vec F S1024x2048 .f32) (x1 : Vec F S1024x2048 .f32) (x2 : Vec F S8192x64 .bf16) (x3 : Vec F S8192x64 .bf16) (x4 : Vec F S128x8 .f32) (x5 : Vec F S1x8 .f32) (xs0 : Vec F S2048x128 .f32) :
    sout0_B_0 c i arg2 harg2 arg3 harg3 arg4 harg4 arg5 harg5 arg6 harg6 arg7 harg7 arg8 harg8 arg9 harg9 hc0 hc1 x0 x1 x2 x3 x4 x5 xs0 = k0_pay2 (nodeRows i x2) (nodeRows i x3) x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread,
    View.ld_unit_zero (S := S1024x2048) hz, View.ld_unit_zero (S := S2048x128) hz, View.ld_unit_zero (S := S128x8) hz, View.ld_unit_zero (S := S1x8) hz]
  rfl

/-- The first step (`k = 0`): the same over the zero block just stored. -/
theorem scratch_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S8192x64 .bf16) (harg4 : arg4.IsWhole) (arg5 : Memref sig .tc .vmem S8192x64 .bf16) (harg5 : arg5.IsWhole) (arg6 : Memref sig .tc .vmem S128x8 .f32) (harg6 : arg6.IsWhole) (arg7 : Memref sig .tc .vmem S1x8 .f32) (harg7 : arg7.IsWhole) (arg8 : Memref sig .tc .vmem S2048x8 .f32) (harg8 : arg8.IsWhole) (arg9 : Memref sig .tc .vmem S2048x128 .f32) (harg9 : arg9.IsWhole) (hc0 : cond0_0 i) (hc1 : ¬cond0_1 i) (x0 : Vec F S1024x2048 .f32) (x1 : Vec F S1024x2048 .f32) (x2 : Vec F S8192x64 .bf16) (x3 : Vec F S8192x64 .bf16) (x4 : Vec F S128x8 .f32) (x5 : Vec F S1x8 .f32) :
    sout0_A_0 c i arg2 harg2 arg3 harg3 arg4 harg4 arg5 harg5 arg6 harg6 arg7 harg7 arg8 harg8 arg9 harg9 hc0 hc1 x0 x1 x2 x3 x4 x5 = k0_pay2 (nodeRows i x2) (nodeRows i x3) x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S2048x128) hz, View.readCov_unit_zero (S := S2048x128) _ hz]
  simp only [View.readAt_eq_ld, harg2.read_unread, harg3.read_unread, harg4.read_unread, harg5.read_unread, harg6.read_unread, harg7.read_unread, harg9.read_unread,
    View.ld_unit_zero (S := S1024x2048) hz, View.ld_unit_zero (S := S2048x128) hz, View.ld_unit_zero (S := S128x8) hz, View.ld_unit_zero (S := S1x8) hz]
  rfl

/-- The last step (`k = 7`), the accumulator: as in a middle step. -/
theorem scratch_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S8192x64 .bf16) (harg4 : arg4.IsWhole) (arg5 : Memref sig .tc .vmem S8192x64 .bf16) (harg5 : arg5.IsWhole) (arg6 : Memref sig .tc .vmem S128x8 .f32) (harg6 : arg6.IsWhole) (arg7 : Memref sig .tc .vmem S1x8 .f32) (harg7 : arg7.IsWhole) (arg8 : Memref sig .tc .vmem S2048x8 .f32) (harg8 : arg8.IsWhole) (arg9 : Memref sig .tc .vmem S2048x128 .f32) (harg9 : arg9.IsWhole) (hc0 : ¬cond0_0 i) (hc1 : cond0_1 i) (x0 : Vec F S1024x2048 .f32) (x1 : Vec F S1024x2048 .f32) (x2 : Vec F S8192x64 .bf16) (x3 : Vec F S8192x64 .bf16) (x4 : Vec F S128x8 .f32) (x5 : Vec F S1x8 .f32) (xs0 : Vec F S2048x128 .f32) :
    sout0_C_0 c i arg2 harg2 arg3 harg3 arg4 harg4 arg5 harg5 arg6 harg6 arg7 harg7 arg8 harg8 arg9 harg9 hc0 hc1 x0 x1 x2 x3 x4 x5 xs0 = k0_pay2 (nodeRows i x2) (nodeRows i x3) x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread,
    View.ld_unit_zero (S := S1024x2048) hz, View.ld_unit_zero (S := S2048x128) hz, View.ld_unit_zero (S := S128x8) hz, View.ld_unit_zero (S := S1x8) hz]
  rfl

/-- The last step, the output block: the dense layer and the `max` of the accumulator the step has just stored. -/
theorem out_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S8192x64 .bf16) (harg4 : arg4.IsWhole) (arg5 : Memref sig .tc .vmem S8192x64 .bf16) (harg5 : arg5.IsWhole) (arg6 : Memref sig .tc .vmem S128x8 .f32) (harg6 : arg6.IsWhole) (arg7 : Memref sig .tc .vmem S1x8 .f32) (harg7 : arg7.IsWhole) (arg8 : Memref sig .tc .vmem S2048x8 .f32) (harg8 : arg8.IsWhole) (arg9 : Memref sig .tc .vmem S2048x128 .f32) (harg9 : arg9.IsWhole) (hc0 : ¬cond0_0 i) (hc1 : cond0_1 i) (x0 : Vec F S1024x2048 .f32) (x1 : Vec F S1024x2048 .f32) (x2 : Vec F S8192x64 .bf16) (x3 : Vec F S8192x64 .bf16) (x4 : Vec F S128x8 .f32) (x5 : Vec F S1x8 .f32) (xs0 : Vec F S2048x128 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 (nodeRows i x2) (nodeRows i x3) x0 x1 xs0) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero (S := S2048x128) _ hz]
  simp only [View.readAt_eq_ld, harg2.read_unread, harg3.read_unread, harg4.read_unread, harg5.read_unread, harg6.read_unread, harg7.read_unread, harg9.read_unread,
    View.ld_unit_zero (S := S1024x2048) hz, View.ld_unit_zero (S := S2048x128) hz, View.ld_unit_zero (S := S128x8) hz, View.ld_unit_zero (S := S1x8) hz]
  rfl

end Cert.KernelIdeal.Pieces

end
-- ==== Proof.Blocks.lean ====
/-
  What the body's loads hold at grid point `t = 8 e + k` (edge tile `e = t / 8`, node tile `k = t % 8`), in terms of
  the argument arrays.

  The two incidence windows show block `(k, e)` of their [8192, 16384] arrays: element `(n, r)` of the block is element
  `(1024 k + n, 2048 e + r)` of the array. The four resident windows show their whole arrays at every point. The
  body cuts rows `1024 k … 1024 k + 1023` out of the two resident node matrices. Before the region, the host computes
  those two matrices from `X`: the first is `X` rounded to bf16, which on the extended reals is `X`; the second is
  `X` minus the first rounded back, which is `X - X`; and the bias is reshaped from [8] to [1, 8].
-/
import proofs.«169365_j6622839570931_2_alg».proof.Proof.Pieces
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- The printed index maps, decided over the grid: the incidence windows move with `(k, e)`, the resident ones stay
    at block `(0, 0)`, the output's block is `(e, 0)`, and the body's second coordinate is `k`. -/
theorem index_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = t.val / 8
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0
    ∧ ((grid0.coords t) 1).val = t.val % 8 :=
  (by decide +kernel : ∀ t : Fin grid0.N, _)

/-! ## The windows' blocks at an element -/

/-- The out-incidence window (its array is `%arg2`). -/
theorem incidence_out_apply (c : Dev nD) (t : Fin cfg0.N) (n : Fin 1024) (r : Fin 2048) (N : Fin 8192) (E : Fin 16384)
    (hN : N.val = 1024 * (t.val % 8) + n.val) (hE : E.val = 2048 * (t.val / 8) + r.val) :
    (iblk m c 0 t : Vec F S1024x2048 .f32) (ix2 n r) = m ((c : Thread nD τ).loc main_arg2) (ix2 N E) := by
  obtain ⟨e0, e1, -⟩ := index_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t (0 : Fin 2) * 1024 + 1 * n.val = N.val; rw [e0, hN]; omega
  | ⟨1, _⟩ => show win0_0.index t (1 : Fin 2) * 2048 + 1 * r.val = E.val; rw [e1, hE]; omega

/-- The in-incidence window (its array is `%arg1`). -/
theorem incidence_in_apply (c : Dev nD) (t : Fin cfg0.N) (n : Fin 1024) (r : Fin 2048) (N : Fin 8192) (E : Fin 16384)
    (hN : N.val = 1024 * (t.val % 8) + n.val) (hE : E.val = 2048 * (t.val / 8) + r.val) :
    (iblk m c 1 t : Vec F S1024x2048 .f32) (ix2 n r) = m ((c : Thread nD τ).loc main_arg1) (ix2 N E) := by
  obtain ⟨-, -, e0, e1, -⟩ := index_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * n.val = N.val; rw [e0, hN]; omega
  | ⟨1, _⟩ => show win0_1.index t (1 : Fin 2) * 2048 + 1 * r.val = E.val; rw [e1, hE]; omega

/-- The resident window of the high half shows its whole array. -/
theorem resident_hi_apply (c : Dev nD) (t : Fin cfg0.N) (j : S8192x64.Idx) :
    (iblk m c 2 t : Vec F S8192x64 .bf16) j = V m c main_v0 j := by
  obtain ⟨-, -, -, -, e0, e1, -⟩ := index_facts t
  unfold iblk
  rw [View.read_apply]
  show V m c main_v0 _ = _
  refine congrArg (V m c main_v0) (funext fun a => Fin.ext ?_)
  match a with
  | ⟨0, _⟩ => show win0_2.index t (0 : Fin 2) * 8192 + 1 * (j 0).val = (j 0).val; rw [e0]; omega
  | ⟨1, _⟩ => show win0_2.index t (1 : Fin 2) * 64 + 1 * (j 1).val = (j 1).val; rw [e1]; omega

/-- The resident window of the low half. -/
theorem resident_lo_apply (c : Dev nD) (t : Fin cfg0.N) (j : S8192x64.Idx) :
    (iblk m c 3 t : Vec F S8192x64 .bf16) j = V m c main_v3 j := by
  obtain ⟨-, -, -, -, -, -, e0, e1, -⟩ := index_facts t
  unfold iblk
  rw [View.read_apply]
  show V m c main_v3 _ = _
  refine congrArg (V m c main_v3) (funext fun a => Fin.ext ?_)
  match a with
  | ⟨0, _⟩ => show win0_3.index t (0 : Fin 2) * 8192 + 1 * (j 0).val = (j 0).val; rw [e0]; omega
  | ⟨1, _⟩ => show win0_3.index t (1 : Fin 2) * 64 + 1 * (j 1).val = (j 1).val; rw [e1]; omega

/-- The resident weight window (its array is `%arg3`). -/
theorem resident_weight_apply (c : Dev nD) (t : Fin cfg0.N) (j : S128x8.Idx) :
    (iblk m c 4 t : Vec F S128x8 .f32) j = m ((c : Thread nD τ).loc main_arg3) j := by
  obtain ⟨-, -, -, -, -, -, -, -, e0, e1, -⟩ := index_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_4.index t (0 : Fin 2) * 128 + 1 * (j 0).val = (j 0).val; rw [e0]; omega
  | ⟨1, _⟩ => show win0_4.index t (1 : Fin 2) * 8 + 1 * (j 1).val = (j 1).val; rw [e1]; omega

/-- The resident bias window: the reshaped bias. -/
theorem resident_bias_apply (c : Dev nD) (t : Fin cfg0.N) (j : S1x8.Idx) :
    (iblk m c 5 t : Vec F S1x8 .f32) j = V m c main_v4 j := by
  obtain ⟨-, -, -, -, -, -, -, -, -, -, e0, e1, -⟩ := index_facts t
  unfold iblk
  rw [View.read_apply]
  show V m c main_v4 _ = _
  refine congrArg (V m c main_v4) (funext fun a => Fin.ext ?_)
  match a with
  | ⟨0, _⟩ => show win0_5.index t (0 : Fin 2) * 1 + 1 * (j 0).val = (j 0).val; rw [e0]; omega
  | ⟨1, _⟩ => show win0_5.index t (1 : Fin 2) * 8 + 1 * (j 1).val = (j 1).val; rw [e1]; omega

/-- The rows the body cuts out of a resident node matrix at point `i`: row `n` of the cut is row `1024 k + n`. -/
theorem node_rows_apply (i : grid0.Coords) (x : Vec F S8192x64 .bf16) (n : Fin 1024) (d : Fin 64) (N : Fin 8192)
    (hN : N.val = 1024 * (i 1).val + n.val) :
    nodeRows i x (ix2 n d) = x (ix2 N d) := by
  show x _ = x _
  refine congrArg x (funext fun a => Fin.ext ?_)
  have ho := k0_off1_eq i
  match a with
  | ⟨0, _⟩ => show k0_off1 i 0 + 1 * n.val = N.val; rw [ho, hN]; show 1024 * (i 1).val + 1 * n.val = _; omega
  | ⟨1, _⟩ => show k0_off1 i 1 + 1 * d.val = d.val; rw [ho]; show 0 + 1 * d.val = d.val; omega

/-! ## What the host computed before the region -/

/-- The high half is `X` rounded to bf16. -/
theorem entry_hi (c : Dev nD) :
    (V m c main_v0 : S8192x64.Idx → Elt F .bf16) = truncf .bf16 (m ((c : Thread nD τ).loc main_arg0)) bitsLt_bf16_f32 := by
  show StableHlo.after hostOps0 (fun b => m (c, b)) (Proc.devRef .tc main_v0) = _
  after_results

/-- The low half is `X` minus the high half widened back, rounded to bf16. -/
theorem entry_lo (c : Dev nD) :
    (V m c main_v3 : S8192x64.Idx → Elt F .bf16)
      = truncf .bf16 (subf (m ((c : Thread nD τ).loc main_arg0))
          (extf .f32 (truncf .bf16 (m ((c : Thread nD τ).loc main_arg0)) bitsLt_bf16_f32) bitsLt_bf16_f32)) bitsLt_bf16_f32 := by
  show StableHlo.after hostOps0 (fun b => m (c, b)) (Proc.devRef .tc main_v3) = _
  after_results

/-- The bias window's array is the bias reshaped to one row. -/
theorem entry_bias (c : Dev nD) :
    (V m c main_v4 : S1x8.Idx → Elt F .f32) = shapeCast S1x8 (m ((c : Thread nD τ).loc main_arg4)) shapeCasts_S8_S1x8 := by
  show StableHlo.after hostOps0 (fun b => m (c, b)) (Proc.devRef .tc main_v4) = _
  after_results
  rfl

end Cert.KernelIdeal.Blocks

end
-- ==== Proof.Payload.lean ====
/-
  The two payloads of the kernel body read at one element, on the extended reals.

  The accumulator update at row `r` (an edge of the tile) and column `j`: the old accumulator there plus, for
  `j < 64`, `∑ n, Ao n r * hi n j + ∑ n, Ao n r * lo n j` over the tile's 1024 nodes (the matrix products contract
  the node axis, axis 0 of both operands; rounding an incidence block to bf16 is the identity here), and for
  `64 ≤ j` the same with the in-incidence block and column `j - 64`: the two products sit side by side in the
  concatenation. The output payload at `(r, q)`: `max (∑ j, acc r j * W j q + b 0 q) 0`.
-/
import proofs.«169365_j6622839570931_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-! ## The tile product `Aᵀ·x` at an element -/

theorem lhs_tile_0 (i : S2048x64.Idx) (q : dot_S1024x2048_S1024x64_S2048x64_0_0_1_1_n_n.contr.Idx) :
    (dot_S1024x2048_S1024x64_S2048x64_0_0_1_1_n_n.lhsIdx i q 0).val = (q ⟨0, by decide⟩).val :=
  dot_S1024x2048_S1024x64_S2048x64_0_0_1_1_n_n.lhsIdx_val_of_single rfl i q
theorem lhs_tile_1 (i : S2048x64.Idx) (q : dot_S1024x2048_S1024x64_S2048x64_0_0_1_1_n_n.contr.Idx) :
    (dot_S1024x2048_S1024x64_S2048x64_0_0_1_1_n_n.lhsIdx i q 1).val = (i 0).val := by
  unfold DotDims.lhsIdx
  rw [dif_neg (show ¬(1 : Fin S1024x2048.rank) ∈ dot_S1024x2048_S1024x64_S2048x64_0_0_1_1_n_n.lhsBatch by decide), dif_pos (show (1 : Fin S1024x2048.rank) ∈ dot_S1024x2048_S1024x64_S2048x64_0_0_1_1_n_n.lhsNonContracting by decide)]
  rfl
theorem rhs_tile_0 (i : S2048x64.Idx) (q : dot_S1024x2048_S1024x64_S2048x64_0_0_1_1_n_n.contr.Idx) :
    (dot_S1024x2048_S1024x64_S2048x64_0_0_1_1_n_n.rhsIdx i q 0).val = (q ⟨0, by decide⟩).val :=
  dot_S1024x2048_S1024x64_S2048x64_0_0_1_1_n_n.rhsIdx_val_of_single rfl i q
theorem rhs_tile_1 (i : S2048x64.Idx) (q : dot_S1024x2048_S1024x64_S2048x64_0_0_1_1_n_n.contr.Idx) :
    (dot_S1024x2048_S1024x64_S2048x64_0_0_1_1_n_n.rhsIdx i q 1).val = (i 1).val := by
  unfold DotDims.rhsIdx
  rw [dif_neg (show ¬(1 : Fin S1024x64.rank) ∈ dot_S1024x2048_S1024x64_S2048x64_0_0_1_1_n_n.rhsBatch by decide), dif_pos (show (1 : Fin S1024x64.rank) ∈ dot_S1024x2048_S1024x64_S2048x64_0_0_1_1_n_n.rhsNonContracting by decide)]
  rfl

/-- The product of an incidence block, contracted along its node axis, with a block of node rows, into a zero
    accumulator: at `(r, d)` the sum over the tile's nodes. -/
theorem tile_product_apply (a : FVec Ideal S1024x2048 .bf16) (x : FVec Ideal S1024x64 .bf16) (r : Fin 2048) (d : Fin 64) :
    matmul dot_S1024x2048_S1024x64_S2048x64_0_0_1_1_n_n none a x (constant S2048x64 .f32 0x00000000#32) (ix2 r d)
      = ∑ n : Fin 1024, a (ix2 n r) * x (ix2 n d) := by
  show FloatOps.matmul dot_S1024x2048_S1024x64_S2048x64_0_0_1_1_n_n none a x (constant S2048x64 .f32 0x00000000#32) (ix2 r d) = _
  rw [Ideal.matmul_constant_zero_apply, ← Equiv.sum_comp (contrEquiv1 dot_S1024x2048_S1024x64_S2048x64_0_0_1_1_n_n 1024 rfl rfl).symm]
  refine Finset.sum_congr rfl fun k _ => ?_
  have hk := contrEquiv1_symm_val dot_S1024x2048_S1024x64_S2048x64_0_0_1_1_n_n 1024 rfl rfl k
  have el : dot_S1024x2048_S1024x64_S2048x64_0_0_1_1_n_n.lhsIdx (ix2 r d) ((contrEquiv1 dot_S1024x2048_S1024x64_S2048x64_0_0_1_1_n_n 1024 rfl rfl).symm k) = (ix2 k r : S1024x2048.Idx) := funext fun a => Fin.ext (by
    match a with
    | ⟨0, _⟩ => exact (lhs_tile_0 _ _).trans hk
    | ⟨1, _⟩ => exact lhs_tile_1 _ _)
  have er : dot_S1024x2048_S1024x64_S2048x64_0_0_1_1_n_n.rhsIdx (ix2 r d) ((contrEquiv1 dot_S1024x2048_S1024x64_S2048x64_0_0_1_1_n_n 1024 rfl rfl).symm k) = (ix2 k d : S1024x64.Idx) := funext fun a => Fin.ext (by
    match a with
    | ⟨0, _⟩ => exact (rhs_tile_0 _ _).trans hk
    | ⟨1, _⟩ => exact rhs_tile_1 _ _)
  rw [el, er]

/-! ## The accumulator update at an element -/

/-- A column gathered along the out-incidence (`j < 64`). -/
theorem update_lo (v6 v9 : FVec Ideal S1024x64 .bf16) (v11 v13 : FVec Ideal S1024x2048 .f32) (v21 : FVec Ideal S2048x128 .f32)
    (r : Fin 2048) (j : Fin 128) (h : j.val < 64) :
    k0_pay2 (F := Ideal) v6 v9 v11 v13 v21 (ix2 r j)
      = v21 (ix2 r j) + ((∑ n : Fin 1024, v11 (ix2 n r) * v6 (ix2 n ⟨j.val, h⟩)) + ∑ n : Fin 1024, v11 (ix2 n r) * v9 (ix2 n ⟨j.val, h⟩)) := by
  unfold k0_pay2
  simp only [shapeCast_self]
  refine (addf_apply _ _ _).trans (congrArg (v21 (ix2 r j) + ·) ?_)
  refine (concatenate_pair_apply_left (1 : Fin S2048x128.rank) _ _ concatenates_S2048x64_S2048x64_S2048x128_d1
    (ix2 r j) rfl (ix2 r ⟨j.val, h⟩) (fun b => by match b with | ⟨0, _⟩ => rfl | ⟨1, _⟩ => rfl)).trans ?_
  refine (addf_apply _ _ _).trans ?_
  rw [tile_product_apply, tile_product_apply, shapeCast_self v6, shapeCast_self v9]
  rfl

/-- A column gathered along the in-incidence (`64 ≤ j`). -/
theorem update_hi (v6 v9 : FVec Ideal S1024x64 .bf16) (v11 v13 : FVec Ideal S1024x2048 .f32) (v21 : FVec Ideal S2048x128 .f32)
    (r : Fin 2048) (j : Fin 128) (h : ¬ j.val < 64) :
    k0_pay2 (F := Ideal) v6 v9 v11 v13 v21 (ix2 r j)
      = v21 (ix2 r j) + ((∑ n : Fin 1024, v13 (ix2 n r) * v6 (ix2 n ⟨j.val - 64, by have := j.isLt; omega⟩))
          + ∑ n : Fin 1024, v13 (ix2 n r) * v9 (ix2 n ⟨j.val - 64, by have := j.isLt; omega⟩)) := by
  unfold k0_pay2
  simp only [shapeCast_self]
  refine (addf_apply _ _ _).trans (congrArg (v21 (ix2 r j) + ·) ?_)
  refine (concatenate_pair_apply_right (1 : Fin S2048x128.rank) _ _ concatenates_S2048x64_S2048x64_S2048x128_d1
    (ix2 r j) rfl rfl (ix2 r ⟨j.val - 64, by have := j.isLt; omega⟩)
    (fun b hb => by match b with | ⟨0, _⟩ => rfl | ⟨1, _⟩ => exact absurd rfl hb)
    (by show (j.val - 64) + 64 = j.val; omega)).trans ?_
  refine (addf_apply _ _ _).trans ?_
  rw [tile_product_apply, tile_product_apply, shapeCast_self v6, shapeCast_self v9]
  rfl

/-- The zero block the first step stores. -/
theorem zero_block_apply (i : S2048x128.Idx) : k0_pay1 (F := Ideal) i = 0 := by
  unfold k0_pay1
  simp only [shapeCast_self]
  show Ideal.ofBits .f32 0x00000000#32 = 0
  exact Ideal.ofBits_zero_f32

/-! ## The output payload at an element -/

theorem lhs_dense_0 (i : S2048x8.Idx) (q : dot_S2048x128_S128x8_S2048x8_1_0_0_1_n_n.contr.Idx) :
    (dot_S2048x128_S128x8_S2048x8_1_0_0_1_n_n.lhsIdx i q 0).val = (i 0).val := by
  unfold DotDims.lhsIdx
  rw [dif_neg (show ¬(0 : Fin S2048x128.rank) ∈ dot_S2048x128_S128x8_S2048x8_1_0_0_1_n_n.lhsBatch by decide), dif_pos (show (0 : Fin S2048x128.rank) ∈ dot_S2048x128_S128x8_S2048x8_1_0_0_1_n_n.lhsNonContracting by decide)]
  rfl
theorem lhs_dense_1 (i : S2048x8.Idx) (q : dot_S2048x128_S128x8_S2048x8_1_0_0_1_n_n.contr.Idx) :
    (dot_S2048x128_S128x8_S2048x8_1_0_0_1_n_n.lhsIdx i q 1).val = (q ⟨0, by decide⟩).val :=
  dot_S2048x128_S128x8_S2048x8_1_0_0_1_n_n.lhsIdx_val_of_single rfl i q
theorem rhs_dense_0 (i : S2048x8.Idx) (q : dot_S2048x128_S128x8_S2048x8_1_0_0_1_n_n.contr.Idx) :
    (dot_S2048x128_S128x8_S2048x8_1_0_0_1_n_n.rhsIdx i q 0).val = (q ⟨0, by decide⟩).val :=
  dot_S2048x128_S128x8_S2048x8_1_0_0_1_n_n.rhsIdx_val_of_single rfl i q
theorem rhs_dense_1 (i : S2048x8.Idx) (q : dot_S2048x128_S128x8_S2048x8_1_0_0_1_n_n.contr.Idx) :
    (dot_S2048x128_S128x8_S2048x8_1_0_0_1_n_n.rhsIdx i q 1).val = (i 1).val := by
  unfold DotDims.rhsIdx
  rw [dif_neg (show ¬(1 : Fin S128x8.rank) ∈ dot_S2048x128_S128x8_S2048x8_1_0_0_1_n_n.rhsBatch by decide), dif_pos (show (1 : Fin S128x8.rank) ∈ dot_S2048x128_S128x8_S2048x8_1_0_0_1_n_n.rhsNonContracting by decide)]
  rfl

/-- The dense layer's product at `(r, q)`. -/
theorem dense_product_apply (a : FVec Ideal S2048x128 .f32) (w : FVec Ideal S128x8 .f32) (r : Fin 2048) (q : Fin 8) :
    matmul dot_S2048x128_S128x8_S2048x8_1_0_0_1_n_n none a w (constant S2048x8 .f32 0x00000000#32) (ix2 r q)
      = ∑ j : Fin 128, a (ix2 r j) * w (ix2 j q) := by
  show FloatOps.matmul dot_S2048x128_S128x8_S2048x8_1_0_0_1_n_n none a w (constant S2048x8 .f32 0x00000000#32) (ix2 r q) = _
  rw [Ideal.matmul_constant_zero_apply, ← Equiv.sum_comp (contrEquiv1 dot_S2048x128_S128x8_S2048x8_1_0_0_1_n_n 128 rfl rfl).symm]
  refine Finset.sum_congr rfl fun k _ => ?_
  have hk := contrEquiv1_symm_val dot_S2048x128_S128x8_S2048x8_1_0_0_1_n_n 128 rfl rfl k
  have el : dot_S2048x128_S128x8_S2048x8_1_0_0_1_n_n.lhsIdx (ix2 r q) ((contrEquiv1 dot_S2048x128_S128x8_S2048x8_1_0_0_1_n_n 128 rfl rfl).symm k) = (ix2 r k : S2048x128.Idx) := funext fun a => Fin.ext (by
    match a with
    | ⟨0, _⟩ => exact lhs_dense_0 _ _
    | ⟨1, _⟩ => exact (lhs_dense_1 _ _).trans hk)
  have er : dot_S2048x128_S128x8_S2048x8_1_0_0_1_n_n.rhsIdx (ix2 r q) ((contrEquiv1 dot_S2048x128_S128x8_S2048x8_1_0_0_1_n_n 128 rfl rfl).symm k) = (ix2 k q : S128x8.Idx) := funext fun a => Fin.ext (by
    match a with
    | ⟨0, _⟩ => exact (rhs_dense_0 _ _).trans hk
    | ⟨1, _⟩ => exact rhs_dense_1 _ _)
  rw [el, er]

/-- The output block's payload at `(r, q)`. -/
theorem output_apply (v30 : FVec Ideal S2048x128 .f32) (v31 : FVec Ideal S128x8 .f32) (v33 : FVec Ideal S1x8 .f32)
    (r : Fin 2048) (q : Fin 8) :
    k0_pay3 (F := Ideal) v30 v31 v33 (ix2 r q)
      = max ((∑ j : Fin 128, v30 (ix2 r j) * v31 (ix2 j q)) + v33 (ix2 0 q)) 0 := by
  unfold k0_pay3
  simp only [shapeCast_self]
  refine (maximumf_apply _ _ _).trans ?_
  have hb : broadcastTo S2048x8 v33 broadcasts_S1x8_S2048x8 (ix2 r q) = v33 (ix2 0 q) :=
    broadcastTo_apply v33 broadcasts_S1x8_S2048x8 (ix2 r q) (ix2 0 q) (fun a => by
      match a with
      | ⟨0, _⟩ => rfl
      | ⟨1, _⟩ => rfl)
  have hzero : (broadcast S2048x8 (Scalar.ofBits (F := Ideal) .f32 0x00000000#32) : FVec Ideal S2048x8 .f32) (ix2 r q) = 0 :=
    Ideal.ofBits_zero_f32
  rw [hzero]
  refine congrArg (max · 0) ?_
  refine (addf_apply _ _ _).trans ?_
  rw [dense_product_apply, hb]

end Cert.KernelIdeal.Payload

end
-- ==== Proof.TileSum.lean ====
/-
  Sums over a long axis cut into consecutive tiles, on the extended reals, and the two facts the
  hi/lo split of a matrix needs there: a finite number minus itself is zero, and products with zero add nothing.

  The gather `∑ n, A n e * X n d` over all 8192 nodes is accumulated tile by tile, 1024 nodes at a time.
  Addition of extended reals is commutative and associative, so the sum over the first `K + 1` tiles is the
  sum over the first `K` plus the next tile's terms; no finiteness is needed for that. Finiteness is needed
  in exactly one place: the low half `X - X` of the split is `0` only where `X` is a real number
  (`⊤ - ⊤ = ⊥`).
-/
import Idealize.ShloMosaic.PureOps.Ideal

open Finset

noncomputable section

namespace Cert.TileSum

/-- A function on the first `N` naturals, continued by zero. -/
def ext0 {N : ℕ} (f : Fin N → EReal) (n : ℕ) : EReal := if h : n < N then f ⟨n, h⟩ else 0

theorem ext0_of_lt {N : ℕ} (f : Fin N → EReal) {n : ℕ} (h : n < N) : ext0 f n = f ⟨n, h⟩ := dif_pos h

/-- The sum over all of `Fin N` is the sum over the range `0 … N - 1`. -/
theorem sum_univ_eq_range {N : ℕ} (f : Fin N → EReal) : ∑ n : Fin N, f n = ∑ i ∈ range N, ext0 f i := by
  rw [← Fin.sum_univ_eq_sum_range (ext0 f) N]
  exact Finset.sum_congr rfl fun n _ => (ext0_of_lt f n.isLt).symm

/-- The sum of the first `K` tiles of `T` consecutive terms. -/
def firstTiles (T : ℕ) (g : ℕ → EReal) (K : ℕ) : EReal := ∑ i ∈ range (T * K), g i

theorem firstTiles_zero (T : ℕ) (g : ℕ → EReal) : firstTiles T g 0 = 0 := by
  simp [firstTiles]

/-- One more tile adds that tile's `T` terms. -/
theorem firstTiles_succ (T : ℕ) (g : ℕ → EReal) (K : ℕ) :
    firstTiles T g (K + 1) = firstTiles T g K + ∑ j : Fin T, g (T * K + j.val) := by
  unfold firstTiles
  rw [Nat.mul_succ, Finset.sum_range_add, Fin.sum_univ_eq_sum_range (fun j => g (T * K + j)) T]

/-- All `N / T` tiles together are the whole sum. -/
theorem firstTiles_all {N : ℕ} (T K : ℕ) (hN : T * K = N) (f : Fin N → EReal) :
    firstTiles T (ext0 f) K = ∑ n : Fin N, f n := by
  unfold firstTiles
  rw [hN, sum_univ_eq_range]

/-- A real number minus itself is zero. At an infinity it is not (`⊤ - ⊤ = ⊥`): this is the one place
    where the inputs' finiteness enters. -/
theorem sub_self_of_real (x : EReal) (h : ∃ r : ℝ, x = (r : EReal)) : x - x = 0 := by
  obtain ⟨r, rfl⟩ := h
  rw [← EReal.coe_sub, sub_self, EReal.coe_zero]

/-- A tile's product with the matrix and its product with a zero matrix add up to the first. -/
theorem sum_mul_add_sum_mul_zero {ι : Type} [Fintype ι] (a x : ι → EReal) :
    (∑ k, a k * x k) + (∑ k, a k * (0 : EReal)) = ∑ k, a k * x k := by
  simp only [mul_zero, Finset.sum_const_zero, add_zero]

end Cert.TileSum

end
-- ==== Proof.EdgeSpec.lean ====
/-
  The edge network's hidden layer as ONE function of the argument arrays, index by index, on the extended reals.

  For an edge `e` and a feature column `j` of the 128 concatenated columns, the gathered feature is
      B e j = ∑ n, Ro n e * X n j            for j < 64      (the out-incidence column of `e` selects a row of `X`),
      B e j = ∑ n, Ri n e * X n (j - 64)     for 64 ≤ j      (the in-incidence column),
  the sum over all 8192 nodes, and the hidden layer is `max (∑ j, B e j * W j q + b q) 0`.
  `gatheredUpTo K` is the same sum over the first `K` tiles of 1024 nodes only: what an accumulator that adds one
  node tile per step holds after `K` steps. It is `0` for `K = 0`, grows by one tile's terms per step, and is the
  whole sum at `K = 8`.
-/
import Idealize.ShloMosaic.Lib.ValueIdx
import proofs.«169365_j6622839570931_2_alg».proof.Proof.TileSum

noncomputable section

open Finset Idealize.ShloMosaic Idealize.ShloMosaic.ValueIdx

namespace Cert.EdgeSpec

/-- Node `n`'s term of the gather of column `d` of `X` along incidence column `e` of `A`. -/
def gterm (A : (⟨2, ![8192, 16384]⟩ : Shape).Idx → EReal) (X : (⟨2, ![8192, 64]⟩ : Shape).Idx → EReal)
    (e : Fin 16384) (d : Fin 64) (n : Fin 8192) : EReal :=
  A (ix2 n e) * X (ix2 n d)

/-- The gathered feature summed over the first `K` node tiles (1024 nodes each): columns below 64 gather along `Ro`,
    the others along `Ri`. -/
def gatheredUpTo (Ro Ri : (⟨2, ![8192, 16384]⟩ : Shape).Idx → EReal) (X : (⟨2, ![8192, 64]⟩ : Shape).Idx → EReal)
    (K : ℕ) (e : Fin 16384) (j : Fin 128) : EReal :=
  if h : j.val < 64 then Cert.TileSum.firstTiles 1024 (Cert.TileSum.ext0 (gterm Ro X e ⟨j.val, h⟩)) K
  else Cert.TileSum.firstTiles 1024 (Cert.TileSum.ext0 (gterm Ri X e ⟨j.val - 64, by have := j.isLt; omega⟩)) K

/-- The gathered feature: the sum over all nodes. -/
def gathered (Ro Ri : (⟨2, ![8192, 16384]⟩ : Shape).Idx → EReal) (X : (⟨2, ![8192, 64]⟩ : Shape).Idx → EReal)
    (e : Fin 16384) (j : Fin 128) : EReal :=
  if h : j.val < 64 then ∑ n : Fin 8192, gterm Ro X e ⟨j.val, h⟩ n
  else ∑ n : Fin 8192, gterm Ri X e ⟨j.val - 64, by have := j.isLt; omega⟩ n

theorem gatheredUpTo_zero (Ro Ri X) (e : Fin 16384) (j : Fin 128) : gatheredUpTo Ro Ri X 0 e j = 0 := by
  unfold gatheredUpTo
  split <;> exact Cert.TileSum.firstTiles_zero _ _

/-- All eight tiles are all nodes. -/
theorem gatheredUpTo_eight (Ro Ri X) (e : Fin 16384) (j : Fin 128) : gatheredUpTo Ro Ri X 8 e j = gathered Ro Ri X e j := by
  unfold gatheredUpTo gathered
  split <;> exact Cert.TileSum.firstTiles_all 1024 8 (by norm_num) _

/-- One more tile, for a column gathered along `Ro`. -/
theorem gatheredUpTo_succ_lo (Ro Ri X) (K : ℕ) (e : Fin 16384) (j : Fin 128) (h : j.val < 64) :
    gatheredUpTo Ro Ri X (K + 1) e j
      = gatheredUpTo Ro Ri X K e j + ∑ n : Fin 1024, Cert.TileSum.ext0 (gterm Ro X e ⟨j.val, h⟩) (1024 * K + n.val) := by
  unfold gatheredUpTo
  rw [dif_pos h, dif_pos h, Cert.TileSum.firstTiles_succ]

/-- One more tile, for a column gathered along `Ri`. -/
theorem gatheredUpTo_succ_hi (Ro Ri X) (K : ℕ) (e : Fin 16384) (j : Fin 128) (h : ¬ j.val < 64) :
    gatheredUpTo Ro Ri X (K + 1) e j
      = gatheredUpTo Ro Ri X K e j
        + ∑ n : Fin 1024, Cert.TileSum.ext0 (gterm Ri X e ⟨j.val - 64, by have := j.isLt; omega⟩) (1024 * K + n.val) := by
  unfold gatheredUpTo
  rw [dif_neg h, dif_neg h, Cert.TileSum.firstTiles_succ]

/-- The hidden layer before the rescaling: dense layer on the gathered features, then `max · 0`. -/
def hidden (Ro Ri : (⟨2, ![8192, 16384]⟩ : Shape).Idx → EReal) (X : (⟨2, ![8192, 64]⟩ : Shape).Idx → EReal)
    (W : (⟨2, ![128, 8]⟩ : Shape).Idx → EReal) (b : (⟨1, ![8]⟩ : Shape).Idx → EReal)
    (i : (⟨2, ![16384, 8]⟩ : Shape).Idx) : EReal :=
  max ((∑ j : Fin 128, gathered Ro Ri X (i 0) j * W (ix2 j (i 1))) + b (ix1 (i 1))) 0

end Cert.EdgeSpec

end
-- ==== Proof.Accum.lean ====
/-
  The accumulator across the grid, on the extended reals, when `X` is finite.

  At point `t = 8 e + k` the body adds to the accumulator, at row `r` and column `j`, the sum over the tile's nodes
  `n` of `A (1024 k + n) (2048 e + r) * hi (1024 k + n) j'` plus the same with `lo`, where `A` and `j'` are `Ro` and
  `j` for `j < 64`, `Ri` and `j - 64` otherwise. The high half `hi` is `X` (rounding is the identity here) and the
  low half `lo = X - X` is zero because `X` is finite, so the second sum adds nothing and the step adds exactly the
  `k`-th tile of the gather. The accumulator starts from the zero block at `k = 0`; by induction on the point it
  holds the gather over the first `k + 1` node tiles after point `8 e + k`, and after `k = 7` the whole gather, of
  which the last step stores the hidden layer into the output block.
-/
import proofs.«169365_j6622839570931_2_alg».proof.Proof.Blocks
import proofs.«169365_j6622839570931_2_alg».proof.Proof.Payload
import proofs.«169365_j6622839570931_2_alg».proof.Proof.EdgeSpec

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Blocks Cert.KernelIdeal.Payload
open Cert.EdgeSpec Cert.TileSum

variable (m : (ℓ : Loc nD τ sig) → Buf (Elt Ideal) ℓ)

/-- The argument arrays on core `c`, named as the network names them. -/
abbrev Ro (c : Dev nD) : S8192x16384.Idx → EReal := m ((c : Thread nD τ).loc main_arg2)
abbrev Ri (c : Dev nD) : S8192x16384.Idx → EReal := m ((c : Thread nD τ).loc main_arg1)
abbrev X (c : Dev nD) : S8192x64.Idx → EReal := m ((c : Thread nD τ).loc main_arg0)
abbrev W (c : Dev nD) : S128x8.Idx → EReal := m ((c : Thread nD τ).loc main_arg3)
abbrev bias (c : Dev nD) : S8.Idx → EReal := m ((c : Thread nD τ).loc main_arg4)

/-- Every entry of `X` on core `c` is a real number. -/
def XFinite (c : Dev nD) : Prop := ∀ i : S8192x64.Idx, ∃ x : ℝ, X m c i = (x : EReal)

/-- The high half, as the region finds it, is `X`. -/
theorem hi_apply (c : Dev nD) (i : S8192x64.Idx) : V m c main_v0 i = (X m c i : EReal) := by
  rw [entry_hi]; rfl

/-- The low half, as the region finds it, is zero where `X` is finite. -/
theorem lo_apply (c : Dev nD) (hX : XFinite m c) (i : S8192x64.Idx) : V m c main_v3 i = (0 : EReal) := by
  rw [entry_lo]
  show X m c i - X m c i = 0
  exact sub_self_of_real _ (hX i)

/-- A sum of products plus the same sum against a vanishing second factor is the first sum, term by term. -/
theorem sum_add_vanishing {ι : Type} [Fintype ι] (a x y g : ι → EReal) (hy : ∀ k, y k = 0) (hx : ∀ k, a k * x k = g k) :
    (∑ k, a k * x k) + (∑ k, a k * y k) = ∑ k, g k := by
  have h2 : (∑ k, a k * y k) = 0 := Finset.sum_eq_zero fun k _ => by rw [hy k, mul_zero]
  rw [h2, add_zero]
  exact Finset.sum_congr rfl fun k _ => hx k

/-- ONE STEP at point `t`: over an accumulator holding the gather of the first `t % 8` tiles at `(r, j)`, the update
    holds the gather of the first `t % 8 + 1`. `E` is the edge `2048 (t / 8) + r` the row stands for. -/
theorem update_at (c : Dev nD) (hX : XFinite m c) (t : Fin cfg0.N) (acc : FVec Ideal S2048x128 .f32)
    (r : Fin 2048) (j : Fin 128) (E : Fin 16384) (hE : E.val = 2048 * (t.val / 8) + r.val)
    (hacc : acc (ix2 r j) = gatheredUpTo (Ro m c) (Ri m c) (X m c) (t.val % 8) E j) :
    k0_pay2 (F := Ideal) (nodeRows (grid0.coords t) (iblk m c 2 t)) (nodeRows (grid0.coords t) (iblk m c 3 t))
        (iblk m c 0 t) (iblk m c 1 t) acc (ix2 r j)
      = gatheredUpTo (Ro m c) (Ri m c) (X m c) (t.val % 8 + 1) E j := by
  have hk : ((grid0.coords t) 1).val = t.val % 8 := (index_facts t).2.2.2.2.2.2.2.2.2.2.2.2.2.2
  have hlt : ∀ n : Fin 1024, 1024 * (t.val % 8) + n.val < 8192 := fun n => by have := n.isLt; omega
  have hhi : ∀ (n : Fin 1024) (d : Fin 64), nodeRows (grid0.coords t) (iblk m c 2 t) (ix2 n d) = X m c (ix2 ⟨_, hlt n⟩ d) := fun n d => by
    rw [node_rows_apply (grid0.coords t) (iblk m c 2 t) n d ⟨_, hlt n⟩ (by rw [hk]), resident_hi_apply, hi_apply]
  have hlo : ∀ (n : Fin 1024) (d : Fin 64), nodeRows (grid0.coords t) (iblk m c 3 t) (ix2 n d) = 0 := fun n d => by
    rw [node_rows_apply (grid0.coords t) (iblk m c 3 t) n d ⟨_, hlt n⟩ (by rw [hk]), resident_lo_apply, lo_apply m c hX]
  by_cases h : j.val < 64
  · refine (update_lo (nodeRows (grid0.coords t) (iblk m c 2 t)) (nodeRows (grid0.coords t) (iblk m c 3 t))
      (iblk m c 0 t) (iblk m c 1 t) acc r j h).trans ?_
    rw [gatheredUpTo_succ_lo _ _ _ _ _ _ h, hacc]
    refine congrArg (gatheredUpTo (Ro m c) (Ri m c) (X m c) (t.val % 8) E j + ·) ?_
    refine sum_add_vanishing _ _ _ _ (fun n => hlo n ⟨j.val, h⟩) (fun n => ?_)
    rw [ext0_of_lt _ (hlt n), hhi n ⟨j.val, h⟩, incidence_out_apply m c t n r ⟨_, hlt n⟩ E rfl hE]
    rfl
  · refine (update_hi (nodeRows (grid0.coords t) (iblk m c 2 t)) (nodeRows (grid0.coords t) (iblk m c 3 t))
      (iblk m c 0 t) (iblk m c 1 t) acc r j h).trans ?_
    rw [gatheredUpTo_succ_hi _ _ _ _ _ _ h, hacc]
    refine congrArg (gatheredUpTo (Ro m c) (Ri m c) (X m c) (t.val % 8) E j + ·) ?_
    refine sum_add_vanishing _ _ _ _ (fun n => hlo n ⟨j.val - 64, by have := j.isLt; omega⟩) (fun n => ?_)
    rw [ext0_of_lt _ (hlt n), hhi n ⟨j.val - 64, by have := j.isLt; omega⟩, incidence_in_apply m c t n r ⟨_, hlt n⟩ E rfl hE]
    rfl

/-- THE INVARIANT: after point `n = 8 e + k` the accumulator holds, at row `r` and column `j`, the gather for
    edge `2048 e + r` over the first `k + 1` node tiles. By induction on the point. -/
theorem accum_eq (c : Dev nD) (hX : XFinite m c) :
    ∀ (n : ℕ) (h : n < cfg0.N) (r : Fin 2048) (j : Fin 128) (E : Fin 16384), E.val = 2048 * (n / 8) + r.val →
      (outsAt0 m c n h).2 (ix2 r j) = gatheredUpTo (Ro m c) (Ri m c) (X m c) (n % 8 + 1) E j := by
  intro n
  induction n with
  | zero =>
    intro h r j E hE
    rw [outsAt0_A m c ⟨0, h⟩ rfl (by show ¬ (0 % 8 = 7); decide)]
    dsimp only
    rw [scratch_A]
    exact update_at m c hX ⟨0, h⟩ k0_pay1 r j E hE ((zero_block_apply _).trans (gatheredUpTo_zero _ _ _ _ _).symm)
  | succ n ih =>
    intro h r j E hE
    have hN : n + 1 < 64 := lt_of_lt_of_eq h (show cfg0.N = 64 from N_0)
    by_cases h0 : (n + 1) % 8 = 0
    · have h1 : ¬ (n + 1) % 8 = 7 := by omega
      rw [outsAt0_A m c ⟨n + 1, h⟩ h0 h1]
      dsimp only
      rw [scratch_A]
      exact update_at m c hX ⟨n + 1, h⟩ k0_pay1 r j E hE
        ((zero_block_apply _).trans (by show (0 : EReal) = gatheredUpTo _ _ _ ((n + 1) % 8) E j; rw [h0, gatheredUpTo_zero]))
    · have hprev : (outsAt0 m c (n + 1 - 1) (Nat.lt_of_le_of_lt (Nat.sub_le _ _) h)).2 (ix2 r j)
          = gatheredUpTo (Ro m c) (Ri m c) (X m c) ((n + 1) % 8) E j := by
        have e := ih (Nat.lt_of_succ_lt h) r j E (by omega)
        have hm : n % 8 + 1 = (n + 1) % 8 := by omega
        rw [hm] at e
        exact e
      by_cases h1 : (n + 1) % 8 = 7
      · rw [outsAt0_C m c ⟨n + 1, h⟩ h0 h1]
        dsimp only
        rw [scratch_C]
        exact update_at m c hX ⟨n + 1, h⟩ _ r j E hE hprev
      · rw [outsAt0_B m c ⟨n + 1, h⟩ h0 h1]
        dsimp only
        rw [scratch_B]
        exact update_at m c hX ⟨n + 1, h⟩ _ r j E hE hprev

/-- The bias window's row at column `q` is the bias at `q`. -/
theorem bias_apply (c : Dev nD) (t : Fin cfg0.N) (q : Fin 8) :
    (iblk m c 5 t : Vec Ideal S1x8 .f32) (ix2 0 q) = bias m c (ix1 q) := by
  rw [resident_bias_apply, entry_bias]
  exact shapeCast_apply _ shapeCasts_S8_S1x8 (ix2 0 q) (ix1 q) (by
    rw [Shape.rowMajor_val_one, Shape.rowMajor_val_two]
    show q.val = 0 * 8 + q.val
    omega)

/-- THE OUTPUT BLOCK: at a last step `t = 8 e + 7` the output's staging buffer holds, at `(r, q)`, the hidden layer of
    edge `2048 e + r`. -/
theorem out_eq (c : Dev nD) (hX : XFinite m c) (t : Fin cfg0.N) (h7 : t.val % 8 = 7)
    (r : Fin 2048) (q : Fin 8) (E : Fin 16384) (hE : E.val = 2048 * (t.val / 8) + r.val) :
    (outsAt0 m c t.val t.isLt).1 (ix2 r q)
      = EdgeSpec.hidden (Ro m c) (Ri m c) (X m c) (W m c) (bias m c) (ix2 E q) := by
  have hN : t.val < 64 := lt64 t
  have h0 : ¬ t.val % 8 = 0 := by omega
  rw [outsAt0_C m c t h0 h7]
  dsimp only
  rw [out_C]
  refine (output_apply _ _ _ r q).trans ?_
  unfold EdgeSpec.hidden
  rw [bias_apply m c t q]
  refine congrArg (fun s => max (s + bias m c (ix1 q)) 0) ?_
  refine Finset.sum_congr rfl fun j _ => ?_
  have hprev : (outsAt0 m c (t.val - 1) (Nat.lt_of_le_of_lt (Nat.sub_le _ _) t.isLt)).2 (ix2 r j)
      = gatheredUpTo (Ro m c) (Ri m c) (X m c) (t.val % 8) E j := by
    have e := accum_eq m c hX (t.val - 1) (Nat.lt_of_le_of_lt (Nat.sub_le _ _) t.isLt) r j E (by omega)
    have hm : (t.val - 1) % 8 + 1 = t.val % 8 := by omega
    rw [hm] at e
    exact e
  rw [update_at m c hX t _ r j E hE hprev, h7, gatheredUpTo_eight, resident_weight_apply]

end Cert.KernelIdeal.Accum

end
-- ==== Proof.Tail.lean ====
/-
  What both programs do to the hidden layer `h` [16384, 8] after it is computed, as ONE function: rescale `h` to
  `[0, 1]` by its global minimum and maximum, multiply by the f32 nearest π, add the two layers' angles
  `θ₀ q + θ₁ q`, take the cosine, apply the readout `· @ W_out + b_out`, and the logistic function written out as
  `1 / (1 + exp (-·))`. The two programs apply these same operations to the same constants, so the certificate
  never opens this function: it only needs the two hidden layers to be equal.
-/
import proofs.«169365_j6622839570931_2_alg».proof.Proof.Gen.KernelIdeal
import Idealize.ShloMosaic.PureOps.Ideal

noncomputable section

open Idealize.ShloMosaic

namespace Cert.KernelIdeal.Tail

open Cert.KernelIdeal Cert.KernelIdeal.Gen

/-- The network after the hidden layer. -/
def readout (h : FVec Ideal S16384x8 .f32) (θ : FVec Ideal S1x16 .f32) (Wo : FVec Ideal S8x1 .f32) (bo : FVec Ideal S1 .f32) :
    FVec Ideal S16384x1 .f32 :=
  let lo : FVec Ideal S_ .f32 := Host.reduce (FloatOps.minimumf (F := Ideal)) h (constant (F := Ideal) S_ .f32 0x7F800000#32) reducesTo_S16384x8_S_d0_1 h_S_
  let hi : FVec Ideal S_ .f32 := Host.reduce (FloatOps.maximumf (F := Ideal)) h (constant (F := Ideal) S_ .f32 0xFF800000#32) reducesTo_S16384x8_S_d0_1 h_S_
  let shifted : FVec Ideal S16384x8 .f32 := subf h (broadcastInDim S16384x8 ![] bcast_S_S16384x8 lo)
  let span : FVec Ideal S16384x8 .f32 := broadcastInDim S16384x8 ![] bcast_S_S16384x8 (subf hi lo)
  let unit : FVec Ideal S16384x8 .f32 := Host.divf (F := Ideal) shifted span
  let angle : FVec Ideal S16384x8 .f32 := mulf unit (broadcastInDim S16384x8 ![] bcast_S_S16384x8 (constant (F := Ideal) S_ .f32 0x40490FDB#32))
  let θq : FVec Ideal S8 .f32 := Host.reduceAdd (F := Ideal) (shapeCast S2x8 θ shapeCasts_S1x16_S2x8) (constant (F := Ideal) S_ .f32 0x00000000#32) reducesTo_S2x8_S8_d0 h_S_
  let θb : FVec Ideal S16384x8 .f32 := broadcastInDim S16384x8 ![0, 1] bcast_S1x8_S16384x8_0_1 (broadcastInDim S1x8 ![1] bcast_S8_S1x8_1 θq)
  let expect : FVec Ideal S16384x8 .f32 := Host.cos (F := Ideal) (addf angle θb)
  let lin : FVec Ideal S16384x1 .f32 := addf (Host.dotGeneral (F := Ideal) dot_S16384x8_S8x1_S16384x1_1_0_0_1_n_n none expect Wo)
    (broadcastInDim S16384x1 ![0, 1] bcast_S1x1_S16384x1_0_1 (broadcastInDim S1x1 ![1] bcast_S1_S1x1_1 bo))
  let one : FVec Ideal S16384x1 .f32 := broadcastInDim S16384x1 ![] bcast_S_S16384x1 (constant (F := Ideal) S_ .f32 0x3F800000#32)
  Host.divf (F := Ideal) one (addf one (Host.exp (F := Ideal) (Host.negf (F := Ideal) lin)))

end Cert.KernelIdeal.Tail

end
-- ==== Proof.Result.lean ====
/-
  The kernel program's result, on the extended reals, when `X` is finite.

  The output window's block at a last step `t = 8 e + 7` is rows `2048 e … 2048 e + 2047` of the [16384, 8] array, and
  the step leaves the hidden layer of exactly those edges in it; the eight last steps' blocks tile the array, so
  after the region the array is the hidden layer `EdgeSpec.hidden` of the argument arrays. The host operations after
  the region then apply `Tail.readout` to it and to the three remaining arguments, which no operation writes.
-/
import proofs.«169365_j6622839570931_2_alg».proof.Proof.Accum
import proofs.«169365_j6622839570931_2_alg».proof.Proof.Tail
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Accum Cert.KernelIdeal.Tail
open Cert.EdgeSpec

variable (m : (ℓ : Loc nD τ sig) → Buf (Elt Ideal) ℓ) (ρ : Dev nD → PrngReg)

/-- The hidden layer of the argument arrays on core `c`, as contents of the output window's array. -/
abbrev hiddenArr (c : Dev nD) : S16384x8.Idx → EReal :=
  EdgeSpec.hidden (Ro m c) (Ri m c) (X m c) (W m c) (bias m c)

/-- What a last step writes back is its block of the hidden layer. -/
theorem flushed_eq (c : Dev nD) (hX : XFinite m c) (t : Fin cfg0.N) (hf : (cfg0.win 6).flush t = true) :
    (dats m 0 c).flushed 6 t = ((cfg0.win 6).blk t).view.read (Elt Ideal) (hiddenArr m c) := by
  have h7 : t.val % 8 = 7 := (flush0_6 t).mp hf
  obtain ⟨-, -, -, -, -, -, -, -, -, -, -, -, e0, e1, -⟩ := index_facts t
  show (cfg0.win 6).cut (grid0.coords t) ((dats m 0 c).after 6 t) = _
  rw [after0_6]
  funext (y : S2048x8.Idx)
  obtain ⟨r, q, rfl⟩ : ∃ (r : Fin 2048) (q : Fin 8), y = ix2 r q := ⟨y 0, y 1, eq_ix2 y⟩
  have hlt : 2048 * (t.val / 8) + r.val < 16384 := by have := lt64 t; have := r.isLt; omega
  refine (out_eq m c hX t h7 r q ⟨_, hlt⟩ rfl).trans ?_
  rw [View.read_apply]
  show hiddenArr m c (ix2 ⟨_, hlt⟩ q) = hiddenArr m c (((cfg0.win 6).blk t).view.emb (ix2 r q))
  refine congrArg (hiddenArr m c) (funext fun a => Fin.ext ?_)
  match a with
  | ⟨0, _⟩ => show 2048 * (t.val / 8) + r.val = win0_6.index t (0 : Fin 2) * 2048 + 1 * r.val; rw [e0]; omega
  | ⟨1, _⟩ => show q.val = win0_6.index t (1 : Fin 2) * 8 + 1 * q.val; rw [e1]; omega

/-- An index of the array is in point `t`'s block iff each coordinate is in the block's range on its axis. -/
theorem mem_blk (t : Fin cfg0.N) (i : S16384x8.Idx) :
    i ∈ ((cfg0.win 6).blk t).view.set ↔ ∀ a : Fin 2, win0_6.index t a * S2048x8.size a ≤ (i a).val ∧ (i a).val < win0_6.index t a * S2048x8.size a + S2048x8.size a := by
  show i ∈ ((View.whole main_v5).slice (win0_6.rect t)).set ↔ _
  rw [View.set_slice_whole, Rect.mem_set_unit]
  exact Iff.rfl

/-- Every row of the array is in the block of the last step of its edge tile. -/
theorem cover (i : S16384x8.Idx) : ∃ t : Fin cfg0.N, (cfg0.win 6).flush t = true ∧ i ∈ ((cfg0.win 6).blk t).view.set := by
  have hi0 : (i 0).val < 16384 := (i 0).isLt
  have hi1 : (i 1).val < 8 := (i 1).isLt
  have hN : cfg0.N = 64 := N_0
  have hlt : 8 * ((i 0).val / 2048) + 7 < cfg0.N := by rw [hN]; omega
  refine ⟨⟨8 * ((i 0).val / 2048) + 7, hlt⟩, (flush0_6 _).mpr (by show (8 * ((i 0).val / 2048) + 7) % 8 = 7; omega), ?_⟩
  obtain ⟨-, -, -, -, -, -, -, -, -, -, -, -, e0, e1, -⟩ := index_facts ⟨8 * ((i 0).val / 2048) + 7, hlt⟩
  rw [mem_blk]
  intro a
  match a with
  | ⟨0, _⟩ =>
    show win0_6.index ⟨8 * ((i 0).val / 2048) + 7, hlt⟩ (0 : Fin 2) * 2048 ≤ (i 0).val
      ∧ (i 0).val < win0_6.index ⟨8 * ((i 0).val / 2048) + 7, hlt⟩ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_6.index ⟨8 * ((i 0).val / 2048) + 7, hlt⟩ (1 : Fin 2) * 8 ≤ (i 1).val
      ∧ (i 1).val < win0_6.index ⟨8 * ((i 0).val / 2048) + 7, hlt⟩ (1 : Fin 2) * 8 + 8
    rw [e1]
    omega

/-- After the region the output window's array is the hidden layer. -/
theorem final (c : Dev nD) (hX : XFinite m c) : (dats m 0 c).arrAt 6 cfg0.N = hiddenArr m c :=
  (dats m 0 c).arrAt_eq_of_cover 6 (hiddenArr m c) (flushed_eq m c hX) cover

/-- An argument no window stages and no host operation writes is, where the host operations after the region read
    it, what the launch put there. -/
theorem tail_reads_theta (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans (V_main_arg5 m c)
theorem tail_reads_wout (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans (V_main_arg6 m c)
theorem tail_reads_bout (c : Dev nD) :
    Pipeline.withArrays (cfgs 0).spec c (V0 m c) (fun w => (dats m 0 c).arrAt w (cfgs 0).N) (Proc.devRef .tc main_arg7)
      = m ((c : Thread nD τ).loc main_arg7) :=
  (Pipeline.withArrays_of_ne _ c (V0 m c) _ main_arg7 (by exact (by decide : ∀ w, Pipeline.arrRef spec0 w ≠ main_arg7))).trans (V_main_arg7 m c)

/-- The output window's array, where the host operations after the region read it, is the hidden layer. -/
theorem tail_reads_hidden (c : Dev nD) (hX : XFinite m c) :
    Pipeline.withArrays (cfgs 0).spec c (V0 m c) (fun w => (dats m 0 c).arrAt w (cfgs 0).N) (Proc.devRef .tc main_v5)
      = hiddenArr m c :=
  (Pipeline.withArrays_arr spec0 launch0.win.arr_inj c _ _ 6).trans (final m c hX)

/-- The program's result on core `c`. -/
abbrev result (c : Dev nD) : Buf (Elt Ideal) ((c : Thread nD τ).loc main_v30) :=
  readout (hiddenArr m c) (m ((c : Thread nD τ).loc main_arg5)) (m ((c : Thread nD τ).loc main_arg6)) (m ((c : Thread nD τ).loc main_arg7))

set_option maxHeartbeats 2000000 in
/-- What the host operations after the region leave in the result buffer. -/
theorem afterTail_eq (c : Dev nD) (hX : XFinite m c) :
    Pipeline.afterTail₀ cfgs (dats m) 0 (V0 m) [hostOps1] c main_v30 = result m c := by
  unfold Pipeline.afterTail₀
  show StableHlo.after hostOps1 _ (Proc.devRef .tc main_v30) = _
  after_results_simp
  rw [tail_reads_hidden m c hX, tail_reads_theta m c, tail_reads_wout m c, tail_reads_bout m c]
  rfl

/-- THE RUN, READ: when `X` is finite on every core, every weakly fair execution of the program terminates with the
    result buffer at the readout of the hidden layer of the arguments, and the arguments unchanged. -/
theorem run (hX : ∀ c, XFinite m c) :
    θ_run defs (onTc (τ := τ) (main (F := Ideal))) ⟨m, fun _ => 0, ρ⟩ fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      ((h c).2 main_v30 (Pipeline.mem_restRefs_of main_v30 (by decide) (by decide))).trans (afterTail_eq m c (hX c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.RefHidden.lean ====
/-
  The reference's hidden layer, read index by index: `max ((B @ W_in + b_in) e q) 0` with
  `B = concatenate [Roᵀ @ X, Riᵀ @ X]`, is the function `EdgeSpec.hidden` of the argument arrays.

  Column `j` of row `e` of the concatenation is, for `j < 64`, the matrix product `Roᵀ @ X` at `(e, j)`, that is
  `∑ n, Ro n e * X n j` (the transpose reads `Ro` at the swapped index), and for `64 ≤ j` the product
  `Riᵀ @ X` at `(e, j - 64)`. The bias is broadcast along the rows, and the zero of the `max` is the f32 zero word.
-/
import proofs.«169365_j6622839570931_2_alg».proof.Proof.RefReadPatched
import proofs.«169365_j6622839570931_2_alg».proof.Proof.EdgeSpec

noncomputable section

namespace Cert.ReferenceIdeal.Hidden

open Cert.ReferenceIdeal Cert.ReferenceIdeal.Gen Cert.ReferenceIdeal.ReadP
open Idealize.ShloMosaic Idealize.ShloMosaic.ValueIdx

/-- `Roᵀ @ X` at `(e, d)` is the gather of column `d` of `X` along incidence column `e`. -/
theorem gather_out (x0 : (⟨S8192x64, .f32⟩ : BufTy).Contents (Elt Ideal)) (x2 : (⟨S8192x16384, .f32⟩ : BufTy).Contents (Elt Ideal))
    (e : Fin 16384) (d : Fin 64) :
    val_main_v1 (F := Ideal) x0 x2 (ix2 e d) = ∑ n : Fin 8192, Cert.EdgeSpec.gterm x2 x0 e d n := by
  rw [val_main_v1_apply]
  refine Finset.sum_congr rfl fun n _ => ?_
  rw [val_main_v0_apply]
  unfold Cert.EdgeSpec.gterm
  have e1 : idx_main_v0 (lidx_main_v1 (ix2 e d) n) = (ix2 n e : S8192x16384.Idx) :=
    funext fun a => Fin.ext (by match a with | ⟨0, _⟩ => rfl | ⟨1, _⟩ => rfl)
  have e2 : ridx_main_v1 (ix2 e d) n = (ix2 n d : S8192x64.Idx) :=
    funext fun a => Fin.ext (by match a with | ⟨0, _⟩ => rfl | ⟨1, _⟩ => rfl)
  rw [e1, e2]

/-- `Riᵀ @ X` at `(e, d)`, the same along the in-incidence. -/
theorem gather_in (x0 : (⟨S8192x64, .f32⟩ : BufTy).Contents (Elt Ideal)) (x1 : (⟨S8192x16384, .f32⟩ : BufTy).Contents (Elt Ideal))
    (e : Fin 16384) (d : Fin 64) :
    val_main_v3 (F := Ideal) x0 x1 (ix2 e d) = ∑ n : Fin 8192, Cert.EdgeSpec.gterm x1 x0 e d n := by
  rw [val_main_v3_apply]
  refine Finset.sum_congr rfl fun n _ => ?_
  rw [val_main_v2_apply]
  unfold Cert.EdgeSpec.gterm
  have e1 : idx_main_v2 (lidx_main_v3 (ix2 e d) n) = (ix2 n e : S8192x16384.Idx) :=
    funext fun a => Fin.ext (by match a with | ⟨0, _⟩ => rfl | ⟨1, _⟩ => rfl)
  have e2 : ridx_main_v3 (ix2 e d) n = (ix2 n d : S8192x64.Idx) :=
    funext fun a => Fin.ext (by match a with | ⟨0, _⟩ => rfl | ⟨1, _⟩ => rfl)
  rw [e1, e2]

/-- The concatenation of the two products at `(e, j)` is the gathered feature. -/
theorem concat_eq_gathered (x0 : (⟨S8192x64, .f32⟩ : BufTy).Contents (Elt Ideal)) (x1 x2 : (⟨S8192x16384, .f32⟩ : BufTy).Contents (Elt Ideal))
    (e : Fin 16384) (j : Fin 128) :
    val_main_v4 (F := Ideal) x0 x1 x2 (ix2 e j) = Cert.EdgeSpec.gathered x2 x1 x0 e j := by
  unfold val_main_v4 Cert.EdgeSpec.gathered
  by_cases h : j.val < 64
  · rw [dif_pos h, ← gather_out x0 x2 e ⟨j.val, h⟩]
    exact concatenate_pair_apply_left (1 : Fin S16384x128.rank) _ _ concatenates_S16384x64_S16384x64_S16384x128_d1
      (ix2 e j) rfl (ix2 e ⟨j.val, h⟩) (fun b => by match b with | ⟨0, _⟩ => rfl | ⟨1, _⟩ => rfl)
  · rw [dif_neg h, ← gather_in x0 x1 e ⟨j.val - 64, by have := j.isLt; omega⟩]
    exact concatenate_pair_apply_right (1 : Fin S16384x128.rank) _ _ concatenates_S16384x64_S16384x64_S16384x128_d1
      (ix2 e j) rfl rfl (ix2 e ⟨j.val - 64, by have := j.isLt; omega⟩)
      (fun b hb => by match b with | ⟨0, _⟩ => rfl | ⟨1, _⟩ => exact absurd rfl hb)
      (by show (j.val - 64) + 64 = j.val; omega)

/-- The reference's hidden layer is `EdgeSpec.hidden` of `Ro = %arg2`, `Ri = %arg1`, `X = %arg0`, `W_in`, `b_in`. -/
theorem val_main_v9_eq (x0 : (⟨S8192x64, .f32⟩ : BufTy).Contents (Elt Ideal)) (x1 x2 : (⟨S8192x16384, .f32⟩ : BufTy).Contents (Elt Ideal))
    (x3 : (⟨S128x8, .f32⟩ : BufTy).Contents (Elt Ideal)) (x4 : (⟨S8, .f32⟩ : BufTy).Contents (Elt Ideal)) :
    val_main_v9 (F := Ideal) x0 x1 x2 x3 x4 = Cert.EdgeSpec.hidden x2 x1 x0 x3 x4 := by
  funext i
  obtain ⟨e, q, rfl⟩ : ∃ (e : Fin 16384) (q : Fin 8), i = ix2 e q := ⟨i 0, i 1, eq_ix2 i⟩
  rw [val_main_v9_apply, val_main_v8_apply, val_main_v5_apply, val_main_v7_apply, val_main_v6_apply,
    val_main_call0_v0_apply, val_main_call0_cst_apply]
  unfold Cert.EdgeSpec.hidden
  have eb : idx_main_v6 (idx_main_v7 (ix2 e q)) = (ix1 q : S8.Idx) :=
    funext fun a => Fin.ext (by match a with | ⟨0, _⟩ => rfl)
  have es : ∀ k : Fin 128, val_main_v4 (F := Ideal) x0 x1 x2 (lidx_main_v5 (ix2 e q) k) * x3 (ridx_main_v5 (ix2 e q) k)
      = Cert.EdgeSpec.gathered x2 x1 x0 e k * x3 (ix2 k q) := fun k => by
    have e1 : lidx_main_v5 (ix2 e q) k = (ix2 e k : S16384x128.Idx) :=
      funext fun a => Fin.ext (by match a with | ⟨0, _⟩ => rfl | ⟨1, _⟩ => rfl)
    have e2 : ridx_main_v5 (ix2 e q) k = (ix2 k q : S128x8.Idx) :=
      funext fun a => Fin.ext (by match a with | ⟨0, _⟩ => rfl | ⟨1, _⟩ => rfl)
    rw [e1, e2, concat_eq_gathered]
  rw [eb, Finset.sum_congr rfl fun k _ => es k]
  simp only [Ideal.addf_def, Ideal.maximumf_def, Ideal.ofBits_def, Ideal.ofBits_zero_f32]

end Cert.ReferenceIdeal.Hidden

end
-- ==== Proof.RefResult.lean ====
/-
  The reference program's result is the shared readout of its hidden layer, and its hidden layer is
  `EdgeSpec.hidden` of the argument arrays: the stages after the hidden layer are, operation for operation and
  constant for constant, the function `Tail.readout`.
-/
import proofs.«169365_j6622839570931_2_alg».proof.Proof.RefHidden
import proofs.«169365_j6622839570931_2_alg».proof.Proof.Tail

noncomputable section

namespace Cert.ReferenceIdeal.Hidden

open Cert.ReferenceIdeal Cert.ReferenceIdeal.Gen Cert.ReferenceIdeal.ReadP
open Idealize.ShloMosaic Idealize.ShloMosaic.TcCoe Idealize.SL.Sem

attribute [local irreducible] Host.reduce Host.reduceAdd in
/-- The reference's last stage is the readout of its hidden-layer stage: the stages between them, unfolded, are the
    readout's own operations in the same order on the same constants. -/
theorem val_main_v34_eq_readout (x0 : (⟨S8192x64, .f32⟩ : BufTy).Contents (Elt Ideal)) (x1 x2 : (⟨S8192x16384, .f32⟩ : BufTy).Contents (Elt Ideal))
    (x3 : (⟨S128x8, .f32⟩ : BufTy).Contents (Elt Ideal)) (x4 : (⟨S8, .f32⟩ : BufTy).Contents (Elt Ideal))
    (x5 : (⟨S1x16, .f32⟩ : BufTy).Contents (Elt Ideal)) (x6 : (⟨S8x1, .f32⟩ : BufTy).Contents (Elt Ideal))
    (x7 : (⟨S1, .f32⟩ : BufTy).Contents (Elt Ideal)) :
    val_main_v34 (F := Ideal) x0 x1 x2 x3 x4 x5 x6 x7
      = Cert.KernelIdeal.Tail.readout (val_main_v9 (F := Ideal) x0 x1 x2 x3 x4) x5 x6 x7 := by
  unfold val_main_v34 val_main_v33 val_main_cst_4 val_main_v32 val_main_v31 val_main_cst_3 val_main_v30 val_main_v29 val_main_v28
    val_main_v27 val_main_v26 val_main_v25 val_main_v24 val_main_v23 val_main_v22 val_main_v21 val_main_v20 val_main_cst_2
    val_main_v19 val_main_v18 val_main_v17 val_main_cst_1 val_main_v16 val_main_v15 val_main_v14 val_main_v13 val_main_v12
    val_main_v11 val_main_cst_0 val_main_v10 val_main_cst Cert.KernelIdeal.Tail.readout
  rfl

end Cert.ReferenceIdeal.Hidden

end
-- ==== Proof.Finite.lean ====
/-
  From the precondition to numbers: `finite_inputs` is the conjunction, over the eight argument arrays, of
  `all (|a| < +∞)`. Its first conjunct says every entry of `X` has absolute value below `+∞`; an extended real with
  that property is neither `⊤` nor `⊥`, so it is a real number. Only this conjunct is needed: finiteness enters the
  certificate through `X - X = 0` alone.
-/
import proofs.«169365_j6622839570931_2_alg».proof.Proof.Gen.Pre_finite_inputs
import Idealize.ShloMosaic.PureOps.Ideal
import Idealize.ShloMosaic.Lib.ReduceAll
import Idealize.ShloMosaic.Lib.ValueIdx
import Idealize.ShloMosaic.Lib.Affine

noncomputable section

open Idealize.ShloMosaic Idealize.ShloMosaic.ValueIdx

namespace Cert.Pre_finite_inputs.Decode

open Cert.Pre_finite_inputs Cert.Pre_finite_inputs.Gen

instance : Subsingleton S_.Idx := ⟨fun a b => funext fun d => d.elim0⟩

/-- An extended real whose absolute value compares below the f32 `+∞` word is a real number. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- Under `finite_inputs`, every entry of the first argument is a real number. -/
theorem first_arg_real (a0 : FVec Ideal S8192x64 .f32) (a1 a2 : FVec Ideal S8192x16384 .f32) (a3 : FVec Ideal S128x8 .f32)
    (a4 : FVec Ideal S8 .f32) (a5 : FVec Ideal S1x16 .f32) (a6 : FVec Ideal S8x1 .f32) (a7 : FVec Ideal S1 .f32)
    (h : fn (F := Ideal) a0 a1 a2 a3 a4 a5 a6 a7 = fun _ => 1#1) (i : S8192x64.Idx) : ∃ r : ℝ, a0 i = (r : EReal) := by
  have h0 := congrFun h ix0
  dsimp only [fn, fn_part1, fn_part2] at h0
  have h33 := (IntOp.andi_eq_one.1 h0).1
  have h28 := (IntOp.andi_eq_one.1 h33).1
  have h23 := (IntOp.andi_eq_one.1 h28).1
  have h18 := (IntOp.andi_eq_one.1 h23).1
  have h13 := (IntOp.andi_eq_one.1 h18).1
  have h8 := (IntOp.andi_eq_one.1 h13).1
  have h3 := (IntOp.andi_eq_one.1 h8).1
  have hi := Host.reduce_andi_all _ _ _ _ _ h3 i
  exact real_of_abs_lt_inf (a0 i) hi

end Cert.Pre_finite_inputs.Decode

end
-- ==== Proof.lean ====
/-
  The certificate's proof: the kernel program (a tiled gather accumulated over a grid axis, with the node matrix
  split into a high and a low bf16 half, fused with the dense layer) and the reference (two whole matrix products)
  compute the same network on the extended reals when the inputs are finite.

  Both programs end with the same operations applied to the hidden layer `max (B·W + b) 0`, so it is enough that
  the hidden layers agree. The reference's `B e j` is the gather `∑ n, A n e * X n j'` over all 8192 nodes. The
  kernel accumulates, over the eight node tiles `k`, `∑ n in tile k, A n e * hi n j' + ∑ n in tile k, A n e * lo n j'`
  with `hi = X` and `lo = X - X`. Addition of extended reals is commutative and associative, so the tiles add up
  to the whole sum with no condition; the low half vanishes exactly because `X` is finite (`⊤ - ⊤ = ⊥`), and that
  is the only use of the precondition.
-/
import proofs.«169365_j6622839570931_2_alg».proof.Defs
import proofs.«169365_j6622839570931_2_alg».proof.Proof.Gen.Kernel.Frame
import proofs.«169365_j6622839570931_2_alg».proof.Proof.Gen.Pre_finite_inputs
import proofs.«169365_j6622839570931_2_alg».proof.Proof.Result
import proofs.«169365_j6622839570931_2_alg».proof.Proof.RefResult
import proofs.«169365_j6622839570931_2_alg».proof.Proof.Finite
import Idealize.ShloMosaic.Adequacy
import Idealize.ShloMosaic.Init

noncomputable section

namespace Cert.Proof

open Idealize.ShloMosaic Idealize.SL.Sem

/-- The three programs run and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The precondition makes every entry of `X` a real number, on every core. -/
theorem x_finite (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Accum.XFinite m c := fun i =>
  Cert.Pre_finite_inputs.Decode.first_arg_real _ _ _ _ _ _ _ _ (hpre c) i

/-- Both programs end with the readout of the hidden layer `EdgeSpec.hidden` of arguments that agree. -/
theorem algebraic : Cert.algebraic_KernelIdeal_ReferenceIdeal := by
  intro m ρ m' ρ' hpre hagree
  refine ⟨fun c => Cert.KernelIdeal.Result.result m c, Cert.KernelIdeal.Result.run m ρ (x_finite m hpre), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v34_eq, Cert.ReferenceIdeal.Hidden.val_main_v34_eq_readout,
    Cert.ReferenceIdeal.Hidden.val_main_v9_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
